-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S1024x1024 : Shape := ⟨2, ![1024, 1024]⟩
abbrev S1024 : Shape := ⟨1, ![1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x8192x1024 .f32) (main_arg1 : FVec F S1024x1024 .f32) (main_arg2 : FVec F S1024 .f32) (main_arg3 : FVec F S1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x8192x1024 : Shape := ⟨3, ![8, 8192, 1024]⟩
abbrev S1024x1024 : Shape := ⟨2, ![1024, 1024]⟩
abbrev S1024 : Shape := ⟨1, ![1024]⟩
abbrev S65536x1024 : Shape := ⟨2, ![65536, 1024]⟩
abbrev S_ : Shape := ⟨0, ![]⟩
abbrev S1x1024 : Shape := ⟨2, ![1, 1024]⟩

abbrev nBuf : Space → Nat
  | .hbm => 13
  | .vmem => 7
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S65536x1024, .f32⟩
  | .hbm, ⟨5, _⟩ => ⟨S1024x1024, .bf16⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S65536x1024, .f32⟩
  | .hbm, ⟨12, _⟩ => ⟨S8x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x8192x1024_S65536x1024 : S8x8192x1024.ShapeCasts S65536x1024
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S65536x1024_S8x8192x1024 : S65536x1024.ShapeCasts S8x8192x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S8x8192x1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1x1024, .f32⟩
  | .hbm, ⟨9, _⟩ => ⟨S8x8192x1024, .f32⟩
  | .hbm, ⟨10, _⟩ => ⟨S8x8192x1024, .f32⟩
  | .hbm, ⟨11, _⟩ => ⟨S1x1x1024, .f32⟩
  | .hbm, ⟨12, _⟩ => ⟨S8x8192x1024, .f32⟩
  | .hbm, ⟨13, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  dot_S8x8192x1024_S1024x1024_S8x8192x1024_2_1_01_0_n_n_wf : DotDims.WF S8x8192x1024 S1024x1024 S8x8192x1024 [2] [1] [0, 1] [0] [] []

variable [Facts₀]

def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf

class Facts : Prop extends Facts₀ where

variable [Facts]
-- ==== Proof.Spec.lean ====
/-
  The function both programs compute. A dequantised linear layer: for batch b, position s and output channel n,

      out[b, s, n] = (∑ₖ x[b, s, k] · w[n, k]) · (scale[n] · c) + bias[n]

  on the extended reals, with c the one float literal both programs multiply the per-channel scale by (the same
  binary word on both sides, so it is never evaluated). The kernel works on the rows r = b · 8192 + s of the
  flattened input, 1024 rows to a block, with the scaled scale and the bias already laid out as 1 × 1024 rows;
  `rows` is that form of the same function.
-/
import Idealize.ShloMosaic.PureOps.Ideal
import Idealize.ShloMosaic.Lib.ValueIdx

noncomputable section

namespace Cert.Dequant

open Idealize.ShloMosaic Idealize.ShloMosaic.ValueIdx

/-- The layer over the flattened rows: row `r`, channel `n` is the row's dot product with the channel's weights, times
    the channel's (already scaled) scale, plus the channel's bias. -/
def rows (x : (⟨2, ![65536, 1024]⟩ : Shape).Idx → EReal) (w : (⟨2, ![1024, 1024]⟩ : Shape).Idx → EReal)
    (s b : (⟨2, ![1, 1024]⟩ : Shape).Idx → EReal) : (⟨2, ![65536, 1024]⟩ : Shape).Idx → EReal :=
  fun j => (∑ k : Fin 1024, x (ix2 (j 0) k) * w (ix2 (j 1) k)) * s (ix2 (0 : Fin 1) (j 1)) + b (ix2 (0 : Fin 1) (j 1))

/-- The layer over batch × position × channel, the per-channel scale multiplied by the literal `c`. -/
def out (x : (⟨3, ![8, 8192, 1024]⟩ : Shape).Idx → EReal) (w : (⟨2, ![1024, 1024]⟩ : Shape).Idx → EReal)
    (s b : (⟨1, ![1024]⟩ : Shape).Idx → EReal) : (⟨3, ![8, 8192, 1024]⟩ : Shape).Idx → EReal :=
  fun i => (∑ k : Fin 1024, x (ix3 (i 0) (i 1) k) * w (ix2 (i 2) k)) * (s (ix1 (i 2)) * Ideal.ofBits .f32 0x3C010204#32)
    + b (ix1 (i 2))

end Cert.Dequant

end
-- ==== Proof.RefSide.lean ====
/-
  The reference is the specification. Its einsum contracts the last axis of x with the last axis of w, so its
  element at (b, s, n) is ∑ₖ x[b, s, k] · w[n, k]; the scale and the bias reach (b, s, n) through two broadcasts that
  keep only the channel coordinate. Read index by index, the reference's composed term is `Dequant.out`.
-/
import proofs.«137026_j14748917694589_2_alg».proof.Proof.Gen.ReferenceIdeal.Read
import proofs.«137026_j14748917694589_2_alg».proof.Proof.Spec

noncomputable section

namespace Cert.ReferenceIdeal.RefValue

open Cert.ReferenceIdeal Cert.ReferenceIdeal.Read Idealize.ShloMosaic Idealize.ShloMosaic.ValueIdx

/-- The reference's result, as a function of its four arguments, is the layer. -/
theorem ref_eq (x0 : (⟨S8x8192x1024, .f32⟩ : BufTy).Contents (Elt Ideal)) (x1 : (⟨S1024x1024, .f32⟩ : BufTy).Contents (Elt Ideal))
    (x2 x3 : (⟨S1024, .f32⟩ : BufTy).Contents (Elt Ideal)) :
    val_main_v8 (F := Ideal) x0 x1 x2 x3 = Cert.Dequant.out x0 x1 x2 x3 := by
  funext i
  -- the contraction reads x at (b, s, k) and w at (n, k)
  have el : ∀ k : Fin 1024, lidx_main_v0 i k = ix3 (i 0) (i 1) k := fun k => funext fun a => by
    match a with
    | ⟨0, _⟩ => rfl
    | ⟨1, _⟩ => rfl
    | ⟨2, _⟩ => rfl
  have er : ∀ k : Fin 1024, ridx_main_v0 i k = ix2 (i 2) k := fun k => funext fun a => by
    match a with
    | ⟨0, _⟩ => rfl
    | ⟨1, _⟩ => rfl
  -- the two broadcasts of a per-channel vector keep the channel coordinate
  have es : idx_main_v3 (idx_main_v4 i) = ix1 (i 2) := funext fun a => by
    match a with
    | ⟨0, _⟩ => rfl
  have eb : idx_main_v6 (idx_main_v7 i) = ix1 (i 2) := funext fun a => by
    match a with
    | ⟨0, _⟩ => rfl
  rw [val_main_v8_apply, val_main_v5_apply, val_main_v0_apply, val_main_v4_apply, val_main_v3_apply, val_main_v2_apply,
    val_main_v1_apply, val_main_cst_apply, val_main_v7_apply, val_main_v6_apply]
  simp only [el, er, es, eb]
  rfl

end Cert.ReferenceIdeal.RefValue

end
-- ==== Proof.Body.lean ====
/-
  The kernel body's one stored value, read at an index. A block of the flattened input holds 1024 rows; the body
  multiplies it with the whole weight matrix, contracting the second axis of both (so entry (p, q) of the product is
  ∑ₖ x[p, k] · w[q, k], accumulated from zero), scales column q by the q-th entry of the 1 × 1024 scale row and adds
  the q-th entry of the 1 × 1024 bias row. Rounding the operands to bf16 changes nothing on the extended reals.
-/
import proofs.«137026_j14748917694589_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The left operand's row is the output's row, -/
theorem lhs_row (j : S1024x1024.Idx) (κ : dot_S1024x1024_S1024x1024_S1024x1024_1_1_0_0_n_n.contr.Idx) : (dot_S1024x1024_S1024x1024_S1024x1024_1_1_0_0_n_n.lhsIdx j κ 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- and its column the contraction index. -/
theorem lhs_col (j : S1024x1024.Idx) (κ : dot_S1024x1024_S1024x1024_S1024x1024_1_1_0_0_n_n.contr.Idx) : (dot_S1024x1024_S1024x1024_S1024x1024_1_1_0_0_n_n.lhsIdx j κ 1).val = (κ ⟨0, by decide⟩).val :=
  dot_S1024x1024_S1024x1024_S1024x1024_1_1_0_0_n_n.lhsIdx_val_of_single rfl j κ
/-- The right operand's row is the output's COLUMN (the weights are indexed channel first), -/
theorem rhs_row (j : S1024x1024.Idx) (κ : dot_S1024x1024_S1024x1024_S1024x1024_1_1_0_0_n_n.contr.Idx) : (dot_S1024x1024_S1024x1024_S1024x1024_1_1_0_0_n_n.rhsIdx j κ 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
/-- and its column the contraction index too: both operands are contracted along their second axis. -/
theorem rhs_col (j : S1024x1024.Idx) (κ : dot_S1024x1024_S1024x1024_S1024x1024_1_1_0_0_n_n.contr.Idx) : (dot_S1024x1024_S1024x1024_S1024x1024_1_1_0_0_n_n.rhsIdx j κ 1).val = (κ ⟨0, by decide⟩).val :=
  dot_S1024x1024_S1024x1024_S1024x1024_1_1_0_0_n_n.rhsIdx_val_of_single rfl j κ

/-- The product accumulated from zero, at (p, q): the sum over k of x[p, k] · w[q, k]. -/
theorem product_at (a b : FVec Ideal S1024x1024 .bf16) (p q : Fin 1024) :
    FloatOps.matmul dot_S1024x1024_S1024x1024_S1024x1024_1_1_0_0_n_n none a b (constant (F := Ideal) S1024x1024 .f32 0x00000000#32) (ix2 p q)
      = ∑ k : Fin 1024, a (ix2 p k) * b (ix2 q k) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k :=
    funext fun a => Fin.ext (by
      match a with
      | ⟨0, _⟩ => exact rhs_row _ _
      | ⟨1, _⟩ => exact (rhs_col _ _).trans hk)
  rw [el, er]

/-- The stored value at (p, q), as a function of the four loaded blocks. -/
theorem stored_at (x0 : Vec Ideal S1024x1024 .f32) (x1 : Vec Ideal S1024x1024 .bf16) (x2 x3 : Vec Ideal S1x1024 .f32)
    (p q : Fin 1024) :
    k0_pay1 (F := Ideal) x0 x1 x2 x3 (ix2 p q)
      = (∑ k : Fin 1024, x0 (ix2 p k) * x1 (ix2 q k)) * x2 (ix2 (0 : Fin 1) q) + x3 (ix2 (0 : Fin 1) q) := by
  unfold k0_pay1
  show (FloatOps.matmul dot_S1024x1024_S1024x1024_S1024x1024_1_1_0_0_n_n none (truncf .bf16 (shapeCast S1024x1024 x0 shapeCasts_S1024x1024_S1024x1024) bitsLt_bf16_f32)
        (shapeCast S1024x1024 x1 shapeCasts_S1024x1024_S1024x1024) (constant (F := Ideal) S1024x1024 .f32 0x00000000#32) (ix2 p q))
      * broadcastTo S1024x1024 (shapeCast S1x1024 x2 shapeCasts_S1x1024_S1x1024) broadcasts_S1x1024_S1024x1024 (ix2 p q)
      + broadcastTo S1024x1024 (shapeCast S1x1024 x3 shapeCasts_S1x1024_S1x1024) broadcasts_S1x1024_S1024x1024 (ix2 p q) = _
  rw [product_at, broadcastTo_1b_ab_apply, broadcastTo_1b_ab_apply, shapeCast_self, shapeCast_self, shapeCast_self, shapeCast_self]
  rfl

end Cert.KernelIdeal.Body

end
-- ==== Proof.Blocks.lean ====
/-
  From blocks to the array. The grid has 64 points; point t takes rows 1024·t … 1024·t + 1023 of the flattened input
  (all 1024 columns), the whole weight matrix and the whole scale and bias rows, and writes back rows
  1024·t … 1024·t + 1023 of the result. What it writes is that block of ONE function of the arrays as the region finds
  them — `Dequant.rows` — because row r = 1024·t + p of the result depends on row r of the input only. The 64 blocks
  tile the 65536 rows (row r lies in block r / 1024), so the array ends holding that function.
-/
import proofs.«137026_j14748917694589_2_alg».proof.Proof.Gen.KernelIdeal.Frame
import proofs.«137026_j14748917694589_2_alg».proof.Proof.Body
import proofs.«137026_j14748917694589_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_off : (![0, 0] : Fin 2 → Nat) = fun _ => 0 := funext fun a => by fin_cases a <;> rfl

/-- Where each window's block sits at point `t`: the input rows and the result rows move with the point, block
    `t` of 64 along the rows; the weights, the scale row and the bias row are each their one whole block. -/
theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, k) of the input block at point `t` is entry (1024·t + p, k) of the flattened input. -/
theorem rows_block (c : Dev nD) (t : Fin cfg0.N) (p k : Fin 1024) (r : Fin 65536) (hr : r.val = t.val * 1024 + p.val) :
    (iblk m c 0 t : Vec Ideal S1024x1024 .f32) (ix2 p k) = (V m c main_v0 : S65536x1024.Idx → EReal) (ix2 r k) := by
  obtain ⟨e0, e1, -⟩ := where_blocks t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The weights' block is the whole weight matrix. -/
theorem weights_block (c : Dev nD) (t : Fin cfg0.N) (q k : Fin 1024) :
    (iblk m c 1 t : Vec Ideal S1024x1024 .bf16) (ix2 q k) = (V m c main_v1 : S1024x1024.Idx → EReal) (ix2 q k) := by
  obtain ⟨-, -, e0, e1, -⟩ := where_blocks t
  show V m c main_v1 (((cfg0.win 1).blk t).view.emb (ix2 q k)) = V m c main_v1 (ix2 q k)
  refine congrArg (V m c main_v1) (funext fun a => Fin.ext ?_)
  match a with
  | ⟨0, _⟩ => show win0_1.index t (0 : Fin 2) * 1024 + 1 * q.val = q.val; rw [e0]; omega
  | ⟨1, _⟩ => show win0_1.index t (1 : Fin 2) * 1024 + 1 * k.val = k.val; rw [e1]; omega

/-- The scale's block is the whole scale row. -/
theorem scale_block (c : Dev nD) (t : Fin cfg0.N) (q : Fin 1024) :
    (iblk m c 2 t : Vec Ideal S1x1024 .f32) (ix2 (0 : Fin 1) q) = (V m c main_v4 : S1x1024.Idx → EReal) (ix2 (0 : Fin 1) q) := by
  obtain ⟨-, -, -, -, e0, e1, -⟩ := where_blocks t
  show V m c main_v4 (((cfg0.win 2).blk t).view.emb (ix2 (0 : Fin 1) q)) = V m c main_v4 (ix2 (0 : Fin 1) q)
  refine congrArg (V m c main_v4) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = q.val; rw [e1]; omega

/-- The bias's block is the whole bias row. -/
theorem bias_block (c : Dev nD) (t : Fin cfg0.N) (q : Fin 1024) :
    (iblk m c 3 t : Vec Ideal S1x1024 .f32) (ix2 (0 : Fin 1) q) = (V m c main_v5 : S1x1024.Idx → EReal) (ix2 (0 : Fin 1) q) := by
  obtain ⟨-, -, -, -, -, -, e0, e1, -⟩ := where_blocks t
  show V m c main_v5 (((cfg0.win 3).blk t).view.emb (ix2 (0 : Fin 1) q)) = V m c main_v5 (ix2 (0 : Fin 1) q)
  refine congrArg (V m c main_v5) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = q.val; rw [e1]; omega

/-- What the body stores at (p, q) at point `t` is the layer at row 1024·t + p, channel q. -/
theorem stored_value (c : Dev nD) (t : Fin cfg0.N) (p q : Fin 1024) (r : Fin 65536) (hr : r.val = t.val * 1024 + p.val) :
    k0_pay1 (F := Ideal) (iblk m c 0 t) (iblk m c 1 t) (iblk m c 2 t) (iblk m c 3 t) (ix2 p q)
      = Cert.Dequant.rows (V m c main_v0) (V m c main_v1) (V m c main_v4) (V m c main_v5) (ix2 r q) := by
  refine (Body.stored_at (iblk m c 0 t) (iblk m c 1 t) (iblk m c 2 t) (iblk m c 3 t) p q).trans ?_
  rw [scale_block m c t q, bias_block m c t q]
  simp only [fun k => rows_block m c t p k r hr, weights_block m c t q]
  rfl

/-- The same at an index `y` of the block, against the layer read where the result's block puts `y`. -/
theorem stored_at_point (c : Dev nD) (t : Fin cfg0.N) (y : S1024x1024.Idx) :
    k0_pay1 (F := Ideal) (iblk m c 0 t) (iblk m c 1 t) (iblk m c 2 t) (iblk m c 3 t) y
      = Cert.Dequant.rows (V m c main_v0) (V m c main_v1) (V m c main_v4) (V m c main_v5) (((cfg0.win 4).blk t).view.emb y) := by
  obtain ⟨-, -, -, -, -, -, -, -, e0, e1⟩ := where_blocks t
  have hN : cfg0.N = 64 := N_0
  have ht : t.val < 64 := hN ▸ t.isLt
  have hp : (y 0).val < 1024 := (y 0).isLt
  have he : ((cfg0.win 4).blk t).view.emb y = ix2 (⟨t.val * 1024 + (y 0).val, by omega⟩ : Fin 65536) (y 1) :=
    funext fun a => Fin.ext (by
      match a with
      | ⟨0, _⟩ => show win0_4.index t (0 : Fin 2) * 1024 + 1 * (y 0).val = t.val * 1024 + (y 0).val; rw [e0]; omega
      | ⟨1, _⟩ => show win0_4.index t (1 : Fin 2) * 1024 + 1 * (y 1).val = (y 1).val; rw [e1]; omega)
  refine (congrArg (k0_pay1 (F := Ideal) (iblk m c 0 t) (iblk m c 1 t) (iblk m c 2 t) (iblk m c 3 t)) (eq_ix2 y)).trans ?_
  refine (stored_value m c t (y 0) (y 1) ⟨t.val * 1024 + (y 0).val, by omega⟩ rfl).trans ?_
  exact congrArg (Cert.Dequant.rows (V m c main_v0) (V m c main_v1) (V m c main_v4) (V m c main_v5)) he.symm

/-- WHAT POINT `t` WRITES BACK is block `t` of the layer over the arrays as the region finds them. -/
theorem flushed_eq (c : Dev nD) (t : Fin cfg0.N) :
    (dats m 0 c).flushed 4 t = ((cfg0.win 4).blk t).view.read (Elt Ideal)
      (Cert.Dequant.rows (V m c main_v0) (V m c main_v1) (V m c main_v4) (V m c main_v5)) := by
  show (cfg0.win 4).cut (grid0.coords t) ((dats m 0 c).after 4 t) = _
  rw [after0_4]
  unfold out0_4
  rw [View.canon_unit_zero zero_off]
  simp only [View.ld_unit_zero (S := S1024x1024) zero_off, View.ld_unit_zero (S := S1x1024) zero_off]
  funext y
  exact stored_at_point m c t y

/-- An index of the result is in point `t`'s block iff each coordinate is in the block's range on its axis. -/
theorem mem_block (t : Fin cfg0.N) (i : S65536x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v6).slice (win0_4.rect t)).set ↔ _
  rw [View.set_slice_whole, Rect.mem_set_unit]
  exact Iff.rfl

/-- Every row of the result is in some point's block: row r in block r / 1024. -/
theorem covered (i : S65536x1024.Idx) :
    ∃ t : Fin cfg0.N, (cfg0.win 4).flush t = true ∧ i ∈ ((cfg0.win 4).blk t).view.set := by
  have hi0 : (i 0).val < 65536 := (i 0).isLt
  have hi1 : (i 1).val < 1024 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨-, -, -, -, -, -, -, -, e0, e1⟩ := where_blocks t
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1024 ≤ (i 1).val ∧ (i 1).val < win0_4.index t (1 : Fin 2) * 1024 + 1024
    rw [e1]; omega

/-- THE RESULT ARRAY after the region: the layer over the arrays as the region finds them. -/
theorem final (c : Dev nD) :
    (dats m 0 c).arrAt 4 cfg0.N = Cert.Dequant.rows (V m c main_v0) (V m c main_v1) (V m c main_v4) (V m c main_v5) :=
  (dats m 0 c).arrAt_eq_of_cover 4 _ (fun t _ => flushed_eq m c t) covered

end Cert.KernelIdeal.Blocks

end
-- ==== Proof.LibFlatten.lean ====
/-
  Merging the two leading axes of a rank-3 array, read at an index. A [a, b, c] array reshaped to [R, c] (R = a · b)
  keeps its row-major order, so row r = p · b + q of the flat array is the slab (p, q) of the original, column by
  column; and the reshape back reads the flat array at that row. General in the extents.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[R, c]` reads, at `(r, k)` with `r = p · b + q`, the operand at `(p, q, k)`. -/
theorem shapeCast_abc_Rc_apply {a b c R : ℕ} (X : (⟨3, ![a, b, c]⟩ : Shape).Idx → α)
    (h : (⟨3, ![a, b, c]⟩ : Shape).ShapeCasts ⟨2, ![R, c]⟩) (p : Fin a) (q : Fin b) (k : Fin c) (r : Fin R)
    (hr : r.val = p.val * b + q.val) : shapeCast ⟨2, ![R, c]⟩ X h (ix2 r k) = X (ix3 p q k) :=
  shapeCast_apply X h _ _ (by
    rw [Shape.rowMajor_val_three, Shape.rowMajor_val_two]
    show (p.val * b + q.val) * c + k.val = r.val * c + k.val
    rw [hr])

/-- A `[R, c]` array cast to `[a, b, c]` reads, at `(p, q, k)`, the operand at `(r, k)` with `r = p · b + q`. -/
theorem shapeCast_Rc_abc_apply {a b c R : ℕ} (Y : (⟨2, ![R, c]⟩ : Shape).Idx → α)
    (h : (⟨2, ![R, c]⟩ : Shape).ShapeCasts ⟨3, ![a, b, c]⟩) (p : Fin a) (q : Fin b) (k : Fin c) (r : Fin R)
    (hr : r.val = p.val * b + q.val) : shapeCast ⟨3, ![a, b, c]⟩ Y h (ix3 p q k) = Y (ix2 r k) :=
  shapeCast_apply Y h _ _ (by
    rw [Shape.rowMajor_val_two, Shape.rowMajor_val_three]
    show r.val * c + k.val = (p.val * b + q.val) * c + k.val
    rw [hr])

end Cert.LibFlatten
-- ==== Proof.HostSide.lean ====
/-
  The host operations around the region, and the kernel's run read as a value. Before the region the program
  flattens x to 65536 rows, rounds the weights to bf16 (the identity on the extended reals), multiplies the scale by
  the literal c and lays it out as a 1 × 1024 row, and lays the bias out as a 1 × 1024 row; after the region it
  reshapes the 65536 × 1024 result back to 8 × 8192 × 1024. Row r = 8192·b + s of the flat arrays is (b, s) of the
  rank-3 ones, so the region's layer over the flat arrays, read through the last reshape, is `Dequant.out` of the
  program's four arguments.
-/
import proofs.«137026_j14748917694589_2_alg».proof.Proof.Gen.KernelIdeal.Frame
import proofs.«137026_j14748917694589_2_alg».proof.Proof.Blocks
import proofs.«137026_j14748917694589_2_alg».proof.Proof.LibFlatten
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-! ## The arrays as the region finds them -/

/-- The region's first array is x with its two leading axes merged. -/
theorem V_rows (c : Dev nD) : (V m c main_v0 : S65536x1024.Idx → EReal)
    = shapeCast S65536x1024 ((m ((c.tc : Thread nD τ).loc main_arg0)) : S8x8192x1024.Idx → EReal) shapeCasts_S8x8192x1024_S65536x1024 := by
  show StableHlo.after hostOps0 (fun b => m (c, b)) (Proc.devRef .tc main_v0) = _
  after_results
  rfl

/-- Its second is the weight matrix: the rounding to bf16 is the identity on the extended reals. -/
theorem V_weights (c : Dev nD) : (V m c main_v1 : S1024x1024.Idx → EReal) = ((m ((c.tc : Thread nD τ).loc main_arg1)) : S1024x1024.Idx → EReal) := by
  show StableHlo.after hostOps0 (fun b => m (c, b)) (Proc.devRef .tc main_v1) = _
  after_results
  rfl

/-- Its third is the scale times the literal, as a 1 × 1024 row. -/
theorem V_scale (c : Dev nD) : (V m c main_v4 : S1x1024.Idx → EReal)
    = shapeCast S1x1024 (mulf ((m ((c.tc : Thread nD τ).loc main_arg2)) : FVec Ideal S1024 .f32)
        (broadcastInDim S1024 ![] bcast_S_S1024 (constant (F := Ideal) S_ .f32 0x3C010204#32))) shapeCasts_S1024_S1x1024 := by
  show StableHlo.after hostOps0 (fun b => m (c, b)) (Proc.devRef .tc main_v4) = _
  after_results
  rfl

/-- Its fourth is the bias as a 1 × 1024 row. -/
theorem V_bias (c : Dev nD) : (V m c main_v5 : S1x1024.Idx → EReal)
    = shapeCast S1x1024 ((m ((c.tc : Thread nD τ).loc main_arg3)) : S1024.Idx → EReal) shapeCasts_S1024_S1x1024 := by
  show StableHlo.after hostOps0 (fun b => m (c, b)) (Proc.devRef .tc main_v5) = _
  after_results
  rfl

/-- The scaled scale row at channel n: scale[n] · c. -/
theorem scale_row_at (x2 : FVec Ideal S1024 .f32) (n : Fin 1024) :
    shapeCast S1x1024 (mulf x2 (broadcastInDim S1024 ![] bcast_S_S1024 (constant (F := Ideal) S_ .f32 0x3C010204#32)))
        shapeCasts_S1024_S1x1024 (ix2 (0 : Fin 1) n)
      = x2 (ix1 n) * Ideal.ofBits .f32 0x3C010204#32 := by
  rw [shapeCast_a_1a_apply]
  rfl

/-! ## The layer over the flat arrays is the layer over the arguments -/

/-- Over any four arrays: the flat layer of x with its leading axes merged, the weights, the scaled scale row and the
    bias row, at row 8192·b + s and channel n, is `Dequant.out` of the four arrays at (b, s, n). -/
theorem rows_flat_eq_out (x0 : S8x8192x1024.Idx → EReal) (x1 : S1024x1024.Idx → EReal) (x2 x3 : S1024.Idx → EReal)
    (b : Fin 8) (s : Fin 8192) (n : Fin 1024) (r : Fin 65536) (hr : r.val = b.val * 8192 + s.val) :
    Cert.Dequant.rows (shapeCast S65536x1024 x0 shapeCasts_S8x8192x1024_S65536x1024) x1
        (shapeCast S1x1024 (mulf (x2 : FVec Ideal S1024 .f32)
          (broadcastInDim S1024 ![] bcast_S_S1024 (constant (F := Ideal) S_ .f32 0x3C010204#32))) shapeCasts_S1024_S1x1024)
        (shapeCast S1x1024 x3 shapeCasts_S1024_S1x1024) (ix2 r n)
      = Cert.Dequant.out x0 x1 x2 x3 (ix3 b s n) := by
  show (∑ k : Fin 1024, shapeCast S65536x1024 x0 shapeCasts_S8x8192x1024_S65536x1024 (ix2 r k) * x1 (ix2 n k))
        * shapeCast S1x1024 (mulf (x2 : FVec Ideal S1024 .f32)
            (broadcastInDim S1024 ![] bcast_S_S1024 (constant (F := Ideal) S_ .f32 0x3C010204#32))) shapeCasts_S1024_S1x1024 (ix2 (0 : Fin 1) n)
        + shapeCast S1x1024 x3 shapeCasts_S1024_S1x1024 (ix2 (0 : Fin 1) n)
      = (∑ k : Fin 1024, x0 (ix3 b s k) * x1 (ix2 n k)) * (x2 (ix1 n) * Ideal.ofBits .f32 0x3C010204#32) + x3 (ix1 n)
  rw [scale_row_at, shapeCast_a_1a_apply]
  simp only [fun k => Cert.LibFlatten.shapeCast_abc_Rc_apply x0 shapeCasts_S8x8192x1024_S65536x1024 b s k r hr]

/-- At (b, s, n): the region's layer over the arrays it finds, at row 8192·b + s, channel n, is `Dequant.out` of the
    program's arguments at (b, s, n). -/
theorem rows_eq_out (c : Dev nD) (b : Fin 8) (s : Fin 8192) (n : Fin 1024) (r : Fin 65536) (hr : r.val = b.val * 8192 + s.val) :
    Cert.Dequant.rows (V m c main_v0) (V m c main_v1) (V m c main_v4) (V m c main_v5) (ix2 r n)
      = Cert.Dequant.out (m ((c.tc : Thread nD τ).loc main_arg0)) (m ((c.tc : Thread nD τ).loc main_arg1)) (m ((c.tc : Thread nD τ).loc main_arg2)) (m ((c.tc : Thread nD τ).loc main_arg3)) (ix3 b s n) := by
  rw [V_rows, V_weights, V_scale, V_bias]
  exact rows_flat_eq_out _ _ _ _ b s n r hr

/-! ## The result after the last reshape -/

/-- The result buffer after the host operation that follows the region: the layer of the four arguments. -/
theorem result_eq (c : Dev nD) :
    (Pipeline.afterTail₀ cfgs (dats m) 0 (V0 m) [hostOps1] c main_v7 : S8x8192x1024.Idx → EReal)
      = Cert.Dequant.out (m ((c.tc : Thread nD τ).loc main_arg0)) (m ((c.tc : Thread nD τ).loc main_arg1)) (m ((c.tc : Thread nD τ).loc main_arg2)) (m ((c.tc : Thread nD τ).loc main_arg3)) := by
  have harr : Pipeline.withArrays (cfgs 0).spec c (V0 m c) (fun w => (dats m 0 c).arrAt w (cfgs 0).N) (Proc.devRef .tc main_v6)
      = Cert.Dequant.rows (V m c main_v0) (V m c main_v1) (V m c main_v4) (V m c main_v5) :=
    (Pipeline.withArrays_arr spec0 launch0.win.arr_inj c _ _ 4).trans (Blocks.final m c)
  unfold Pipeline.afterTail₀
  show StableHlo.after hostOps1 _ (Proc.devRef .tc main_v7) = _
  after_results
  rw [harr]
  funext i
  obtain ⟨b, s, n, rfl⟩ : ∃ (b : Fin 8) (s : Fin 8192) (n : Fin 1024), i = ix3 b s n := ⟨i 0, i 1, i 2, eq_ix3 i⟩
  have hb : b.val < 8 := b.isLt
  have hs : s.val < 8192 := s.isLt
  show shapeCast S8x8192x1024 (Cert.Dequant.rows (V m c main_v0) (V m c main_v1) (V m c main_v4) (V m c main_v5))
      shapeCasts_S65536x1024_S8x8192x1024 (ix3 b s n) = _
  rw [Cert.LibFlatten.shapeCast_Rc_abc_apply _ _ b s n ⟨b.val * 8192 + s.val, by omega⟩ rfl]
  exact rows_eq_out m c b s n _ rfl

/-! ## The run, read -/

/-- Every weakly fair execution of the idealized kernel program terminates with the result buffer at the layer of its
    four arguments and the arguments unchanged. -/
theorem run : θ_run defs (onTc (τ := τ) (main (F := Ideal))) ⟨m, fun _ => 0, ρ⟩ fun r => ∀ c : Dev nD,
      r.2.mem ((c.tc : Thread nD τ).loc main_v7)
        = Cert.Dequant.out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostSide

end
-- ==== Proof.lean ====
/-
  A dequantised linear layer, kernel against reference, on the extended reals.

  Both programs compute, for batch b, position s and output channel n,

      out[b, s, n] = (∑ₖ x[b, s, k] · w[n, k]) · (scale[n] · c) + bias[n],

  c the one float literal (the same binary word in both, never evaluated). The reference does it with one einsum over
  the rank-3 input and two broadcasts. The kernel flattens x to 65536 rows, runs 64 grid points of 1024 rows each —
  a matrix product with the whole weight matrix accumulated from zero, a column scale, a column bias — and reshapes
  the result back; its roundings to bf16 are the identity here. No algebraic law beyond re-indexing the sums joins the
  two sides, so finiteness of the inputs is never used.

  Proof/Spec.lean states the function; Proof/RefSide.lean reads the reference's term as it; Proof/Body.lean reads the
  kernel body's stored value at an index; Proof/Blocks.lean goes from what each grid point writes back to the whole
  result array; Proof/HostSide.lean reads the host operations around the region and states the kernel's run;
  Proof/LibFlatten.lean is the reshape between [a, b, c] and [a·b, c] read at an index. Here: the three frames, the
  (empty) idealization ledger, and the two runs side by side.
-/
import proofs.«137026_j14748917694589_2_alg».proof.Defs
import proofs.«137026_j14748917694589_2_alg».proof.Proof.Gen.Kernel
import proofs.«137026_j14748917694589_2_alg».proof.Proof.Gen.Kernel.Skeleton
import proofs.«137026_j14748917694589_2_alg».proof.Proof.Gen.Kernel.Launch
import proofs.«137026_j14748917694589_2_alg».proof.Proof.Gen.Kernel.Points
import proofs.«137026_j14748917694589_2_alg».proof.Proof.Gen.Kernel.Frame
import proofs.«137026_j14748917694589_2_alg».proof.Proof.Gen.KernelIdeal
import proofs.«137026_j14748917694589_2_alg».proof.Proof.Gen.KernelIdeal.Skeleton
import proofs.«137026_j14748917694589_2_alg».proof.Proof.Gen.KernelIdeal.Launch
import proofs.«137026_j14748917694589_2_alg».proof.Proof.Gen.KernelIdeal.Points
import proofs.«137026_j14748917694589_2_alg».proof.Proof.Gen.KernelIdeal.Frame
import proofs.«137026_j14748917694589_2_alg».proof.Proof.Gen.ReferenceIdeal
import proofs.«137026_j14748917694589_2_alg».proof.Proof.Gen.ReferenceIdeal.Run
import proofs.«137026_j14748917694589_2_alg».proof.Proof.Gen.ReferenceIdeal.Read
import proofs.«137026_j14748917694589_2_alg».proof.Proof.Gen.Pre_finite_inputs
import proofs.«137026_j14748917694589_2_alg».proof.Proof.RefSide
import proofs.«137026_j14748917694589_2_alg».proof.Proof.HostSide
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: there is no ledger entry to justify. -/
theorem preserves : Cert.preserves_Kernel_KernelIdeal := trivial

/-- From memories agreeing on the four arguments both programs end with the result at the layer of those arguments:
    the kernel by its run read through the region and the reshapes, the reference by its run read index by index. -/
theorem algebraic : Cert.algebraic_KernelIdeal_ReferenceIdeal := by
  intro m ρ m' ρ' _ hagree
  refine ⟨fun c => Cert.Dequant.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v8_eq]
  exact Cert.ReferenceIdeal.RefValue.ref_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
